-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S150000x64 : Shape := ⟨2, ![150000, 64]⟩
abbrev S2000000 : Shape := ⟨1, ![2000000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S150000x64 : S_.BroadcastsInDim S150000x64 (![] : Fin 0 → Fin S150000x64.rank)
  reducesTo_S150000x64_S_d0_1 : S150000x64.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S1 .f32) (main_v13 : IVec S_ 1) (main_v16 : IVec S64x1 1) : IVec S_ 1 :=
  let main_c_5 : IVec S_ 1 := constantI S_ 1 1#1
  let main_v17 : IVec S_ 1 := (fun x v => Host.reduce IntOp.andi x v reducesTo_S64x1_S_d0_1 h_S_) main_v16 main_c_5
  let main_v18 : IVec S_ 1 := andi main_v13 main_v17
  let main_v19 : FVec F S1 .f32 := Host.absf main_arg6
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S150000x64 .f32) (main_arg1 : IVec S2000000 32) (main_arg2 : IVec S2000000 32) (main_arg3 : FVec F S128x64 .f32) (main_arg4 : FVec F S64 .f32) (main_arg5 : FVec F S64x1 .f32) (main_arg6 : FVec F S1 .f32) : IVec S_ 1 :=
  let main_v0 : FVec F S150000x64 .f32 := Host.absf main_arg0
  let main_cst : FVec F S_ .f32 := constant S_ .f32 0x7F800000#32
  let main_v1 : FVec F S150000x64 .f32 := broadcastInDim S150000x64 ![] bcast_S_S150000x64 main_cst
  let main_v2 : IVec S150000x64 1 := cmpf .olt main_v0 main_v1
  let main_c : IVec S_ 1 := constantI S_ 1 1#1
  let main_v3 : IVec S_ 1 := (fun x v => Host.reduce IntOp.andi x v reducesTo_S150000x64_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x1 .f32 := Host.absf main_arg5
  let main_cst_4 : FVec F S_ .f32 := constant S_ .f32 0x7F800000#32
  let main_v15 : FVec F S64x1 .f32 := broadcastInDim S64x1 ![] bcast_S_S64x1 main_cst_4
  let main_v16 : IVec S64x1 1 := cmpf .olt main_v14 main_v15
  fn_part1 (F := F) main_arg6 main_v13 main_v16
-- ==== Kernel.lean ====
abbrev S150000x64 : Shape := ⟨2, ![150000, 64]⟩
abbrev S2000000 : Shape := ⟨1, ![2000000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩
abbrev S2000000x1 : Shape := ⟨2, ![2000000, 1]⟩
abbrev S2000000x64 : Shape := ⟨2, ![2000000, 64]⟩
abbrev S2000000x128 : Shape := ⟨2, ![2000000, 128]⟩
abbrev S1x64 : Shape := ⟨2, ![1, 64]⟩
abbrev S1x1 : Shape := ⟨2, ![1, 1]⟩
abbrev S2002000x128 : Shape := ⟨2, ![2002000, 128]⟩
abbrev S2002000x1 : Shape := ⟨2, ![2002000, 1]⟩
abbrev S14000x128 : Shape := ⟨2, ![14000, 128]⟩
abbrev S14000x1 : Shape := ⟨2, ![14000, 1]⟩
abbrev S14000x64 : Shape := ⟨2, ![14000, 64]⟩

abbrev nBuf : Space → Nat
  | .hbm => 36
  | .vmem => 8
  | .smem => 0
  | _ => 0

abbrev bufTy : (tb : Table) → Fin (tcTables nBuf tb) → BufTy
  | .hbm, ⟨0, _⟩ => ⟨S150000x64, .f32⟩
  | .hbm, ⟨1, _⟩ => ⟨S2000000, .i32⟩
  | .hbm, ⟨2, _⟩ => ⟨S2000000, .i32⟩
  | .hbm, ⟨3, _⟩ => ⟨S128x64, .f32⟩
  | .hbm, ⟨4, _⟩ => ⟨S64, .f32⟩
  | .hbm, ⟨5, _⟩ => ⟨S64x1, .f32⟩
  | .hbm, ⟨6, _⟩ => ⟨S1, .f32⟩
  | .hbm, ⟨7, _⟩ => ⟨S150000x64, .bf16⟩
  | .hbm, ⟨8, _⟩ => ⟨S_, .i32⟩
  | .hbm, ⟨9, _⟩ => ⟨S2000000, .i32⟩
  | .hbm, ⟨10, _⟩ => ⟨S2000000, .i1⟩
  | .hbm, ⟨11, _⟩ => ⟨S_, .i32⟩
  | .hbm, ⟨12, _⟩ => ⟨S2000000, .i32⟩
  | .hbm, ⟨13, _⟩ => ⟨S2000000, .i32⟩
  | .hbm, ⟨14, _⟩ => ⟨S2000000, .i32⟩
  | .hbm, ⟨15, _⟩ => ⟨S2000000x1, .i32⟩
  | .hbm, ⟨16, _⟩ => ⟨S2000000x64, .bf16⟩
  | .hbm, ⟨17, _⟩ => ⟨S_, .i32⟩
  | .hbm, ⟨18, _⟩ => ⟨S2000000, .i32⟩
  | .hbm, ⟨19, _⟩ => ⟨S2000000, .i1⟩
  | .hbm, ⟨20, _⟩ => ⟨S_, .i32⟩
  | .hbm, ⟨21, _⟩ => ⟨S2000000, .i32⟩
  | .hbm, ⟨22, _⟩ => ⟨S2000000, .i32⟩
  | .hbm, ⟨23, _⟩ => ⟨S2000000, .i32⟩
  | .hbm, ⟨24, _⟩ => ⟨S2000000x1, .i32⟩
  | .hbm, ⟨25, _⟩ => ⟨S2000000x64, .bf16⟩
  | .hbm, ⟨26, _⟩ => ⟨S2000000x128, .bf16⟩
  | .hbm, ⟨27, _⟩ => ⟨S128x64, .bf16⟩
  | .hbm, ⟨28, _⟩ => ⟨S64x1, .bf16⟩
  | .hbm, ⟨29, _⟩ => ⟨S1x64, .f32⟩
  | .hbm, ⟨30, _⟩ => ⟨S1x1, .f32⟩
  | .hbm, ⟨31, _⟩ => ⟨S_, .i32⟩
  | .hbm, ⟨32, _⟩ => ⟨S_, .bf16⟩
  | .hbm, ⟨33, _⟩ => ⟨S2002000x128, .bf16⟩
  | .hbm, ⟨34, _⟩ => ⟨S2002000x1, .f32⟩
  | .hbm, ⟨35, _⟩ => ⟨S2000000x1, .f32⟩
  | .local _ .vmem, ⟨0, _⟩ => ⟨S14000x128, .bf16⟩
  | .local _ .vmem, ⟨1, _⟩ => ⟨S14000x128, .bf16⟩
  | .local _ .vmem, ⟨2, _⟩ => ⟨S128x64, .bf16⟩
  | .local _ .vmem, ⟨3, _⟩ => ⟨S1x64, .f32⟩
  | .local _ .vmem, ⟨4, _⟩ => ⟨S64x1, .bf16⟩
  | .local _ .vmem, ⟨5, _⟩ => ⟨S1x1, .f32⟩
  | .local _ .vmem, ⟨6, _⟩ => ⟨S14000x1, .f32⟩
  | .local _ .vmem, ⟨7, _⟩ => ⟨S14000x1, .f32⟩
  | _, _ => ⟨S150000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_call0_v0 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![143], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S14000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S14000x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  bcast_S_S2000000 : S_.BroadcastsInDim S2000000 (![] : Fin 0 → Fin S2000000.rank)
  bcast_S2000000_S2000000x1_0 : S2000000.BroadcastsInDim S2000000x1 (![0] : Fin 1 → Fin S2000000x1.rank)
  concatenates_S2000000x64_S2000000x64_S2000000x128_d1 : Shape.Concatenates [S2000000x64, S2000000x64] S2000000x128 1
  shapeCasts_S64_S1x64 : S64.ShapeCasts S1x64
  shapeCasts_S1_S1x1 : S1.ShapeCasts S1x1
  pads_S2000000x128_S2002000x128_020000_000 : S2000000x128.Pads (![0, 0] : Fin 2 → Nat) ![2000, 0] ![0, 0] S2002000x128
  h_S_ : 0 < S_.numel
  inb_S14000x128_S14000x128_0_0 : ∀ a, (![0, 0] : Fin 2 → Nat) a + S14000x128.size a ≤ S14000x128.size a
  h_S14000x128 : 0 < S14000x128.numel
  shapeCasts_S14000x128_S14000x128 : S14000x128.ShapeCasts S14000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S14000x64 : S1x64.Broadcasts S14000x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S14000x1 : S1x1.Broadcasts S14000x1
  inb_S14000x1_S14000x1_0_0 : ∀ a, (![0, 0] : Fin 2 → Nat) a + S14000x1.size a ≤ S14000x1.size a
  h_S14000x1 : 0 < S14000x1.numel
  slices_S2002000x1_S2000000x1_0_0 : S2002000x1.Slices ![0, 0] S2000000x1
  gather_S150000x64_S2000000x1_S2000000x64_1_0_n_n_0_1_164_wf : GatherDims.WF S150000x64 S2000000x1 S2000000x64 [1] [0] [] [0] [] 1 ![1, 64]
  dot_S14000x128_S128x64_S14000x64_1_0_0_1_n_n_wf : DotDims.WF S14000x128 S128x64 S14000x64 [1] [0] [0] [1] [] []
  dot_S14000x64_S64x1_S14000x1_1_0_0_1_n_n_wf : DotDims.WF S14000x64 S64x1 S14000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S14000x128.size a ≤ S2002000x128.size a
  hwx0_0 : ∀ i : grid0.Coords, EltTy.bits .bf16 = 32 ∨ (Rect.block (s := S2002000x128) S14000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .bf16 = 32 ∨ (Rect.block (s := S128x64) S128x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x1.size a ≤ S64x1.size a
  hwx0_3 : ∀ i : grid0.Coords, EltTy.bits .bf16 = 32 ∨ (Rect.block (s := S64x1) S64x1.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S14000x1.size a ≤ S2002000x1.size a
  hwx0_5 : ∀ i : grid0.Coords, EltTy.bits .f32 = 32 ∨ (Rect.block (s := S2002000x1) S14000x1.size (cc0_transform_5 i) (hinb0_5 i)).WholeWords (EltTy.packing .f32)

variable [Facts₀]

def gather_S150000x64_S2000000x1_S2000000x64_1_0_n_n_0_1_164 : GatherDims S150000x64 S2000000x1 S2000000x64 where
  offsetDims := [1]
  collapsedSliceDims := [0]
  operandBatchingDims := []
  startIndicesBatchingDims := []
  startIndexMap := [0]
  indexVectorDim := 1
  sliceSizes := ![1, 64]
  wf := gather_S150000x64_S2000000x1_S2000000x64_1_0_n_n_0_1_164_wf
def dot_S14000x128_S128x64_S14000x64_1_0_0_1_n_n : DotDims S14000x128 S128x64 S14000x64 where
  lhsContracting := [1]
  rhsContracting := [0]
  lhsNonContracting := [0]
  rhsNonContracting := [1]
  lhsBatch := []
  rhsBatch := []
  wf := dot_S14000x128_S128x64_S14000x64_1_0_0_1_n_n_wf
def dot_S14000x64_S64x1_S14000x1_1_0_0_1_n_n : DotDims S14000x64 S64x1 S14000x1 where
  lhsContracting := [1]
  rhsContracting := [0]
  lhsNonContracting := [0]
  rhsNonContracting := [1]
  lhsBatch := []
  rhsBatch := []
  wf := dot_S14000x64_S64x1_S14000x1_1_0_0_1_n_n_wf

abbrev win0_0 : Pipeline.Window sig grid0 :=
  Pipeline.Window.ofSpec (Memref.whole main_v20) S14000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S64x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S14000x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S150000x64 : Shape := ⟨2, ![150000, 64]⟩
abbrev S2000000 : Shape := ⟨1, ![2000000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩
abbrev S2000000x1 : Shape := ⟨2, ![2000000, 1]⟩
abbrev S2000000x64 : Shape := ⟨2, ![2000000, 64]⟩
abbrev S2000000x128 : Shape := ⟨2, ![2000000, 128]⟩
abbrev S1x64 : Shape := ⟨2, ![1, 64]⟩
abbrev S1x1 : Shape := ⟨2, ![1, 1]⟩

abbrev nBuf : Space → Nat
  | .hbm => 37
  | .vmem => 0
  | .smem => 0
  | _ => 0

abbrev bufTy : (tb : Table) → Fin (tcTables nBuf tb) → BufTy
  | .hbm, ⟨0, _⟩ => ⟨S150000x64, .f32⟩
  | .hbm, ⟨1, _⟩ => ⟨S2000000, .i32⟩
  | .hbm, ⟨2, _⟩ => ⟨S2000000, .i32⟩
  | .hbm, ⟨3, _⟩ => ⟨S128x64, .f32⟩
  | .hbm, ⟨4, _⟩ => ⟨S64, .f32⟩
  | .hbm, ⟨5, _⟩ => ⟨S64x1, .f32⟩
  | .hbm, ⟨6, _⟩ => ⟨S1, .f32⟩
  | .hbm, ⟨7, _⟩ => ⟨S_, .i32⟩
  | .hbm, ⟨8, _⟩ => ⟨S2000000, .i32⟩
  | .hbm, ⟨9, _⟩ => ⟨S2000000, .i1⟩
  | .hbm, ⟨10, _⟩ => ⟨S_, .i32⟩
  | .hbm, ⟨11, _⟩ => ⟨S2000000, .i32⟩
  | .hbm, ⟨12, _⟩ => ⟨S2000000, .i32⟩
  | .hbm, ⟨13, _⟩ => ⟨S2000000, .i32⟩
  | .hbm, ⟨14, _⟩ => ⟨S2000000x1, .i32⟩
  | .hbm, ⟨15, _⟩ => ⟨S2000000x64, .f32⟩
  | .hbm, ⟨16, _⟩ => ⟨S_, .i32⟩
  | .hbm, ⟨17, _⟩ => ⟨S2000000, .i32⟩
  | .hbm, ⟨18, _⟩ => ⟨S2000000, .i1⟩
  | .hbm, ⟨19, _⟩ => ⟨S_, .i32⟩
  | .hbm, ⟨20, _⟩ => ⟨S2000000, .i32⟩
  | .hbm, ⟨21, _⟩ => ⟨S2000000, .i32⟩
  | .hbm, ⟨22, _⟩ => ⟨S2000000, .i32⟩
  | .hbm, ⟨23, _⟩ => ⟨S2000000x1, .i32⟩
  | .hbm, ⟨24, _⟩ => ⟨S2000000x64, .f32⟩
  | .hbm, ⟨25, _⟩ => ⟨S2000000x128, .f32⟩
  | .hbm, ⟨26, _⟩ => ⟨S2000000x64, .f32⟩
  | .hbm, ⟨27, _⟩ => ⟨S1x64, .f32⟩
  | .hbm, ⟨28, _⟩ => ⟨S2000000x64, .f32⟩
  | .hbm, ⟨29, _⟩ => ⟨S2000000x64, .f32⟩
  | .hbm, ⟨30, _⟩ => ⟨S_, .f32⟩
  | .hbm, ⟨31, _⟩ => ⟨S2000000x64, .f32⟩
  | .hbm, ⟨32, _⟩ => ⟨S2000000x64, .f32⟩
  | .hbm, ⟨33, _⟩ => ⟨S2000000x1, .f32⟩
  | .hbm, ⟨34, _⟩ => ⟨S1x1, .f32⟩
  | .hbm, ⟨35, _⟩ => ⟨S2000000x1, .f32⟩
  | .hbm, ⟨36, _⟩ => ⟨S2000000x1, .f32⟩
  | _, _ => ⟨S150000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_cst : Ref sig .tc := ⟨.hbm, 30, rfl⟩
abbrev main_call0_v0 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]

class Facts₀ : Prop where
  bcast_S_S2000000 : S_.BroadcastsInDim S2000000 (![] : Fin 0 → Fin S2000000.rank)
  bcast_S2000000_S2000000x1_0 : S2000000.BroadcastsInDim S2000000x1 (![0] : Fin 1 → Fin S2000000x1.rank)
  concatenates_S2000000x64_S2000000x64_S2000000x128_d1 : Shape.Concatenates [S2000000x64, S2000000x64] S2000000x128 1
  bcast_S64_S1x64_1 : S64.BroadcastsInDim S1x64 (![1] : Fin 1 → Fin S1x64.rank)
  bcast_S1x64_S2000000x64_0_1 : S1x64.BroadcastsInDim S2000000x64 (![0, 1] : Fin 2 → Fin S2000000x64.rank)
  bcast_S_S2000000x64 : S_.BroadcastsInDim S2000000x64 (![] : Fin 0 → Fin S2000000x64.rank)
  bcast_S1_S1x1_1 : S1.BroadcastsInDim S1x1 (![1] : Fin 1 → Fin S1x1.rank)
  bcast_S1x1_S2000000x1_0_1 : S1x1.BroadcastsInDim S2000000x1 (![0, 1] : Fin 2 → Fin S2000000x1.rank)
  gather_S150000x64_S2000000x1_S2000000x64_1_0_n_n_0_1_164_wf : GatherDims.WF S150000x64 S2000000x1 S2000000x64 [1] [0] [] [0] [] 1 ![1, 64]
  dot_S2000000x128_S128x64_S2000000x64_1_0_0_1_n_n_wf : DotDims.WF S2000000x128 S128x64 S2000000x64 [1] [0] [0] [1] [] []
  dot_S2000000x64_S64x1_S2000000x1_1_0_0_1_n_n_wf : DotDims.WF S2000000x64 S64x1 S2000000x1 [1] [0] [0] [1] [] []

variable [Facts₀]

def gather_S150000x64_S2000000x1_S2000000x64_1_0_n_n_0_1_164 : GatherDims S150000x64 S2000000x1 S2000000x64 where
  offsetDims := [1]
  collapsedSliceDims := [0]
  operandBatchingDims := []
  startIndicesBatchingDims := []
  startIndexMap := [0]
  indexVectorDim := 1
  sliceSizes := ![1, 64]
  wf := gather_S150000x64_S2000000x1_S2000000x64_1_0_n_n_0_1_164_wf
def dot_S2000000x128_S128x64_S2000000x64_1_0_0_1_n_n : DotDims S2000000x128 S128x64 S2000000x64 where
  lhsContracting := [1]
  rhsContracting := [0]
  lhsNonContracting := [0]
  rhsNonContracting := [1]
  lhsBatch := []
  rhsBatch := []
  wf := dot_S2000000x128_S128x64_S2000000x64_1_0_0_1_n_n_wf
def dot_S2000000x64_S64x1_S2000000x1_1_0_0_1_n_n : DotDims S2000000x64 S64x1 S2000000x1 where
  lhsContracting := [1]
  rhsContracting := [0]
  lhsNonContracting := [0]
  rhsNonContracting := [1]
  lhsBatch := []
  rhsBatch := []
  wf := dot_S2000000x64_S64x1_S2000000x1_1_0_0_1_n_n_wf

class Facts : Prop extends Facts₀ where

variable [Facts]
-- ==== Proof.EdgeScore.lean ====
/-
  The score of one edge.

  An edge's feature row x (128 entries: the source node's 64 features followed by the destination node's) goes through
  a two-layer perceptron with one output: the hidden unit k is max(∑ⱼ x j · W1 j k + b1 k, 0), and the score is
  ∑ₖ hidden k · W2 k + b2. Everything is an extended real; the sums are the extended reals' own.
-/
import Idealize.ShloMosaic.PureOps.Ideal

noncomputable section
open scoped BigOperators
namespace Cert.EdgeMlp

/-- One edge's score from its feature row, the two weight matrices and the two biases. -/
def edgeScore (x : Fin 128 → EReal) (W1 : Fin 128 → Fin 64 → EReal) (b1 : Fin 64 → EReal)
    (W2 : Fin 64 → EReal) (b2 : EReal) : EReal :=
  (∑ k : Fin 64, max ((∑ j : Fin 128, x j * W1 j k) + b1 k) 0 * W2 k) + b2

end Cert.EdgeMlp
-- ==== Proof.LibPlainDot.lean ====
/-
  A plain matrix product read at an entry.

  For a contraction of an [A, K] array with a [K, B] array over the shared axis — no batch axes, the rows of the left
  operand and the columns of the right operand kept — the (p, q) entry is the sum over k < K of left (p, k) times
  right (k, q). This holds for the product taken on the host and, into a zero accumulator, for the product taken in the
  kernel; both are stated here as sums over `Fin K`.
-/
import Idealize.ShloMosaic.Lib.ValueIdx
import Idealize.ShloMosaic.PureOps.Ideal.Laws

noncomputable section
open scoped BigOperators
namespace Cert.PlainDot
open Idealize.ShloMosaic Idealize.ShloMosaic.ValueIdx

variable {A K B : Nat}

/-- The dimension numbers of an [A, K] by [K, B] product. -/
abbrev Dot2 (A K B : Nat) : Type :=
  DotDims (⟨2, ![A, K]⟩ : Shape) (⟨2, ![K, B]⟩ : Shape) (⟨2, ![A, B]⟩ : Shape)

/-- The left operand's second axis meets the right operand's first; the other two axes are kept; nothing is batched. -/
structure IsPlain (d : Dot2 A K B) : Prop where
  lc : d.lhsContracting = [1]
  rc : d.rhsContracting = [0]
  ln : d.lhsNonContracting = [0]
  rn : d.rhsNonContracting = [1]
  lb : d.lhsBatch = []
  rb : d.rhsBatch = []

section Coordinates
variable (wf : DotDims.WF (⟨2, ![A, K]⟩ : Shape) (⟨2, ![K, B]⟩ : Shape) (⟨2, ![A, B]⟩ : Shape) [1] [0] [0] [1] [] [])

/-- The left operand's row is the entry's row. -/
theorem lhs0 (i : (⟨2, ![A, B]⟩ : Shape).Idx) (q : (⟨[1], [0], [0], [1], [], [], wf⟩ : Dot2 A K B).contr.Idx) :
    ((⟨[1], [0], [0], [1], [], [], wf⟩ : Dot2 A K B).lhsIdx i q 0).val = (i 0).val := by
  unfold DotDims.lhsIdx
  rw [dif_neg (show ¬(0 : Fin 2) ∈ (⟨[1], [0], [0], [1], [], [], wf⟩ : Dot2 A K B).lhsBatch from List.not_mem_nil),
    dif_pos (show (0 : Fin 2) ∈ (⟨[1], [0], [0], [1], [], [], wf⟩ : Dot2 A K B).lhsNonContracting from List.mem_singleton.mpr rfl)]
  rfl

/-- The left operand's column is the contracted index. -/
theorem lhs1 (i : (⟨2, ![A, B]⟩ : Shape).Idx) (q : (⟨[1], [0], [0], [1], [], [], wf⟩ : Dot2 A K B).contr.Idx) :
    ((⟨[1], [0], [0], [1], [], [], wf⟩ : Dot2 A K B).lhsIdx i q 1).val = (q ⟨0, Nat.one_pos⟩).val :=
  (⟨[1], [0], [0], [1], [], [], wf⟩ : Dot2 A K B).lhsIdx_val_of_single rfl i q

/-- The right operand's row is the contracted index. -/
theorem rhs0 (i : (⟨2, ![A, B]⟩ : Shape).Idx) (q : (⟨[1], [0], [0], [1], [], [], wf⟩ : Dot2 A K B).contr.Idx) :
    ((⟨[1], [0], [0], [1], [], [], wf⟩ : Dot2 A K B).rhsIdx i q 0).val = (q ⟨0, Nat.one_pos⟩).val :=
  (⟨[1], [0], [0], [1], [], [], wf⟩ : Dot2 A K B).rhsIdx_val_of_single rfl i q

/-- The right operand's column is the entry's column. -/
theorem rhs1 (i : (⟨2, ![A, B]⟩ : Shape).Idx) (q : (⟨[1], [0], [0], [1], [], [], wf⟩ : Dot2 A K B).contr.Idx) :
    ((⟨[1], [0], [0], [1], [], [], wf⟩ : Dot2 A K B).rhsIdx i q 1).val = (i 1).val := by
  unfold DotDims.rhsIdx
  rw [dif_neg (show ¬(1 : Fin 2) ∈ (⟨[1], [0], [0], [1], [], [], wf⟩ : Dot2 A K B).rhsBatch from List.not_mem_nil),
    dif_pos (show (1 : Fin 2) ∈ (⟨[1], [0], [0], [1], [], [], wf⟩ : Dot2 A K B).rhsNonContracting from List.mem_singleton.mpr rfl)]
  rfl

end Coordinates

/-- The sum over the contracted index, re-indexed by `Fin K`, with the operand entries named by their coordinates. -/
theorem sum_contr (d : Dot2 A K B) (hd : IsPlain d) (l : (⟨2, ![A, K]⟩ : Shape).Idx → EReal)
    (r : (⟨2, ![K, B]⟩ : Shape).Idx → EReal) (i : (⟨2, ![A, B]⟩ : Shape).Idx) :
    ∑ q : d.contr.Idx, l (d.lhsIdx i q) * r (d.rhsIdx i q) = ∑ k : Fin K, l (ix2 (i 0) k) * r (ix2 k (i 1)) := by
  obtain ⟨lc, rc, ln, rn, lb, rb, wf⟩ := d
  obtain ⟨h1, h2, h3, h4, h5, h6⟩ := hd
  dsimp only at h1 h2 h3 h4 h5 h6
  subst h1 h2 h3 h4 h5 h6
  rw [← Equiv.sum_comp (contrEquiv1 (⟨[1], [0], [0], [1], [], [], wf⟩ : Dot2 A K B) K rfl rfl).symm]
  refine Finset.sum_congr rfl fun k _ => ?_
  have hk := contrEquiv1_symm_val (⟨[1], [0], [0], [1], [], [], wf⟩ : Dot2 A K B) K rfl rfl k
  have el : (⟨[1], [0], [0], [1], [], [], wf⟩ : Dot2 A K B).lhsIdx i
      ((contrEquiv1 (⟨[1], [0], [0], [1], [], [], wf⟩ : Dot2 A K B) K rfl rfl).symm k) = ix2 (i 0) k :=
    funext fun a => Fin.ext (by
      match a with
      | ⟨0, _⟩ => exact lhs0 wf _ _
      | ⟨1, _⟩ => exact (lhs1 wf _ _).trans hk)
  have er : (⟨[1], [0], [0], [1], [], [], wf⟩ : Dot2 A K B).rhsIdx i
      ((contrEquiv1 (⟨[1], [0], [0], [1], [], [], wf⟩ : Dot2 A K B) K rfl rfl).symm k) = ix2 k (i 1) :=
    funext fun a => Fin.ext (by
      match a with
      | ⟨0, _⟩ => exact (rhs0 wf _ _).trans hk
      | ⟨1, _⟩ => exact rhs1 wf _ _)
  exact congrArg₂ (· * ·) (congrArg l el) (congrArg r er)

/-- The host's product at an entry. -/
theorem dotGeneral_plain {φ₁ φ₂ : FTy} (d : Dot2 A K B) (hd : IsPlain d) (prec : Option ContractPrecision) (sched : HostSchedule)
    (l : FVec Ideal (⟨2, ![A, K]⟩ : Shape) φ₁) (r : FVec Ideal (⟨2, ![K, B]⟩ : Shape) φ₂) (i : (⟨2, ![A, B]⟩ : Shape).Idx) :
    FloatOps.dotGeneral d prec sched l r i = ∑ k : Fin K, l (ix2 (i 0) k) * r (ix2 k (i 1)) := by
  rw [Ideal.dotGeneral_apply]
  exact sum_contr d hd l r i

/-- The kernel's product into a zero accumulator at an entry. -/
theorem matmul_zero_plain {φ₁ φ₂ : FTy} (d : Dot2 A K B) (hd : IsPlain d) (prec : Option ContractPrecision)
    (l : FVec Ideal (⟨2, ![A, K]⟩ : Shape) φ₁) (r : FVec Ideal (⟨2, ![K, B]⟩ : Shape) φ₂) (i : (⟨2, ![A, B]⟩ : Shape).Idx) :
    FloatOps.matmul d prec l r (constant (⟨2, ![A, B]⟩ : Shape) .f32 0x00000000#32) i
      = ∑ k : Fin K, l (ix2 (i 0) k) * r (ix2 k (i 1)) := by
  rw [Ideal.matmul_constant_zero_apply]
  exact sum_contr d hd l r i

end Cert.PlainDot
-- ==== Proof.BodyScore.lean ====
/-
  The kernel body at one row.

  The body's stored value, row p of a block, is the score of the edge whose feature row is row p of the loaded edge
  block: a product with the loaded W1 into a zero accumulator, the loaded b1 row laid along every row, the clamp at
  zero, a change of float format (the identity on extended reals), a product with the loaded W2 column into a zero
  accumulator, and the loaded b2 entry laid along every row.
-/
import proofs.«180528_j34050500723299_2_alg».proof.Proof.Gen.KernelIdeal.Skeleton
import proofs.«180528_j34050500723299_2_alg».proof.Proof.EdgeScore
import proofs.«180528_j34050500723299_2_alg».proof.Proof.LibPlainDot
import Idealize.ShloMosaic.Lib.Pipeline.Value
import Idealize.ShloMosaic.Lib.ValueIdx
import Idealize.ShloMosaic.PureOps.Ideal.Laws

noncomputable section
open scoped BigOperators
namespace Cert.KernelIdeal.Body
open Cert.KernelIdeal Cert.KernelIdeal.Gen Idealize.ShloMosaic Idealize.ShloMosaic.ValueIdx Cert.EdgeMlp

/-- Both products contract the left operand's columns with the right operand's rows and batch nothing. -/
theorem plain1 : Cert.PlainDot.IsPlain dot_S14000x128_S128x64_S14000x64_1_0_0_1_n_n := ⟨rfl, rfl, rfl, rfl, rfl, rfl⟩
theorem plain2 : Cert.PlainDot.IsPlain dot_S14000x64_S64x1_S14000x1_1_0_0_1_n_n := ⟨rfl, rfl, rfl, rfl, rfl, rfl⟩

/-- The b1 row laid along the block's rows: entry (p, k) is the row's entry k. -/
theorem b1_rows (x2 : Vec Ideal S1x64 .f32) (p : Fin 14000) (k : Fin 64) :
    broadcastTo S14000x64 x2 broadcasts_S1x64_S14000x64 (ix2 p k) = x2 (ix2 0 k) :=
  broadcastTo_apply x2 _ (ix2 p k) (ix2 0 k) (fun a => match a with
    | ⟨0, _⟩ => by show 0 = if (1 : Nat) = 1 then 0 else _; rw [if_pos rfl]
    | ⟨1, _⟩ => by show k.val = if (64 : Nat) = 1 then 0 else k.val; rw [if_neg (by decide)])

/-- The b2 entry laid along the block's rows. -/
theorem b2_rows (x4 : Vec Ideal S1x1 .f32) (p : Fin 14000) (q : Fin 1) :
    broadcastTo S14000x1 x4 broadcasts_S1x1_S14000x1 (ix2 p q) = x4 (ix2 0 0) :=
  broadcastTo_apply x4 _ (ix2 p q) (ix2 0 0) (fun a => match a with
    | ⟨0, _⟩ => by show 0 = if (1 : Nat) = 1 then 0 else _; rw [if_pos rfl]
    | ⟨1, _⟩ => by show 0 = if (1 : Nat) = 1 then 0 else _; rw [if_pos rfl])

/-- Row p of the stored value is the score of the edge in row p of the loaded block. -/
theorem pay_apply (x0 : Vec Ideal S14000x128 .bf16) (x1 : Vec Ideal S128x64 .bf16) (x2 : Vec Ideal S1x64 .f32)
    (x3 : Vec Ideal S64x1 .bf16) (x4 : Vec Ideal S1x1 .f32) (p : Fin 14000) (q : Fin 1) :
    k0_pay1 (F := Ideal) x0 x1 x2 x3 x4 (ix2 p q)
      = edgeScore (fun j => x0 (ix2 p j)) (fun j k => x1 (ix2 j k)) (fun k => x2 (ix2 0 k)) (fun k => x3 (ix2 k q)) (x4 (ix2 0 0)) := by
  unfold k0_pay1 edgeScore
  simp only [shapeCast_self]
  change _ + _ = _
  refine congrArg₂ (· + ·) ?_ (b2_rows x4 p q)
  refine (Cert.PlainDot.matmul_zero_plain (φ₁ := .bf16) (φ₂ := .bf16) dot_S14000x64_S64x1_S14000x1_1_0_0_1_n_n plain2 none _ x3 (ix2 p q)).trans ?_
  refine Finset.sum_congr rfl fun k _ => ?_
  refine congrArg₂ (· * ·) ?_ rfl
  change max (_ + _) (Ideal.ofBits .f32 0x00000000#32) = _
  rw [Ideal.ofBits_zero_f32]
  refine congrArg₂ max (congrArg₂ (· + ·) ?_ (b1_rows x2 p k)) rfl
  exact Cert.PlainDot.matmul_zero_plain (φ₁ := .bf16) (φ₂ := .bf16) dot_S14000x128_S128x64_S14000x64_1_0_0_1_n_n plain1 none x0 x1 (ix2 p k)

end Cert.KernelIdeal.Body
end
-- ==== Proof.EdgeBlocks.lean ====
/-
  The blocks the kernel loads at a grid point.

  Point t of the 143 loads rows 14000·t … 14000·t + 13999 of the padded edge-feature array, and the whole of each of
  the four small arrays (both weight matrices and both biases, as the region finds them): their block index is always
  zero. The output's block at point t is rows 14000·t … 14000·t + 13999 of the output array.
-/
import proofs.«180528_j34050500723299_2_alg».proof.Proof.Gen.KernelIdeal.Frame
import Idealize.ShloMosaic.Lib.Pipeline.Value
import Idealize.ShloMosaic.Lib.ValueIdx
import Idealize.ShloMosaic.PureOps.Ideal

noncomputable section
namespace Cert.KernelIdeal.Blocks
open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The block indices at every grid point: the edge-feature window and the output window move one block of rows per
    point; the four small windows stay at block zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of the edge block at point t is row 14000·t + p of the padded edge-feature array. -/
theorem edge_block (c : Dev nD) (t : Fin cfg0.N) (p : Fin 14000) (j : Fin 128) (r : Fin 2002000)
    (hr : r.val = 14000 * t.val + p.val) :
    (iblk m c 0 t : Vec Ideal S14000x128 .bf16) (ix2 p j) = (V m c main_v20 : S2002000x128.Idx → EReal) (ix2 r j) := by
  obtain ⟨e0, e1, -⟩ := idx_facts t
  unfold iblk
  rw [View.read_apply]
  show V m c main_v20 _ = V m c main_v20 _
  refine congrArg (V m c main_v20) (funext fun a => Fin.ext ?_)
  match a with
  | ⟨0, _⟩ => show win0_0.index t (0 : Fin 2) * 14000 + 1 * p.val = r.val; rw [e0, hr]; omega
  | ⟨1, _⟩ => show win0_0.index t (1 : Fin 2) * 128 + 1 * j.val = j.val; rw [e1]; omega

/-- The W1 block at any point is the whole array. -/
theorem w1_block (c : Dev nD) (t : Fin cfg0.N) :
    (iblk m c 1 t : Vec Ideal S128x64 .bf16) = (V m c main_v16 : S128x64.Idx → EReal) := by
  obtain ⟨-, -, e0, e1, -⟩ := idx_facts t
  funext x
  unfold iblk
  rw [View.read_apply]
  show V m c main_v16 _ = V m c main_v16 x
  refine congrArg (V m c main_v16) (funext fun a => Fin.ext ?_)
  match a with
  | ⟨0, _⟩ => show win0_1.index t (0 : Fin 2) * 128 + 1 * (x 0).val = (x 0).val; rw [e0]; omega
  | ⟨1, _⟩ => show win0_1.index t (1 : Fin 2) * 64 + 1 * (x 1).val = (x 1).val; rw [e1]; omega

/-- The b1 block at any point is the whole one-row array. -/
theorem b1_block (c : Dev nD) (t : Fin cfg0.N) :
    (iblk m c 2 t : Vec Ideal S1x64 .f32) = (V m c main_v18 : S1x64.Idx → EReal) := by
  obtain ⟨-, -, -, -, e0, e1, -⟩ := idx_facts t
  funext x
  unfold iblk
  rw [View.read_apply]
  show V m c main_v18 _ = V m c main_v18 x
  refine congrArg (V m c main_v18) (funext fun a => Fin.ext ?_)
  match a with
  | ⟨0, _⟩ => show win0_2.index t (0 : Fin 2) * 1 + 1 * (x 0).val = (x 0).val; rw [e0]; omega
  | ⟨1, _⟩ => show win0_2.index t (1 : Fin 2) * 64 + 1 * (x 1).val = (x 1).val; rw [e1]; omega

/-- The W2 block at any point is the whole one-column array. -/
theorem w2_block (c : Dev nD) (t : Fin cfg0.N) :
    (iblk m c 3 t : Vec Ideal S64x1 .bf16) = (V m c main_v17 : S64x1.Idx → EReal) := by
  obtain ⟨-, -, -, -, -, -, e0, e1, -⟩ := idx_facts t
  funext x
  unfold iblk
  rw [View.read_apply]
  show V m c main_v17 _ = V m c main_v17 x
  refine congrArg (V m c main_v17) (funext fun a => Fin.ext ?_)
  match a with
  | ⟨0, _⟩ => show win0_3.index t (0 : Fin 2) * 64 + 1 * (x 0).val = (x 0).val; rw [e0]; omega
  | ⟨1, _⟩ => show win0_3.index t (1 : Fin 2) * 1 + 1 * (x 1).val = (x 1).val; rw [e1]; omega

/-- The b2 block at any point is the whole one-entry array. -/
theorem b2_block (c : Dev nD) (t : Fin cfg0.N) :
    (iblk m c 4 t : Vec Ideal S1x1 .f32) = (V m c main_v19 : S1x1.Idx → EReal) := by
  obtain ⟨-, -, -, -, -, -, -, -, e0, e1, -⟩ := idx_facts t
  funext x
  unfold iblk
  rw [View.read_apply]
  show V m c main_v19 _ = V m c main_v19 x
  refine congrArg (V m c main_v19) (funext fun a => Fin.ext ?_)
  match a with
  | ⟨0, _⟩ => show win0_4.index t (0 : Fin 2) * 1 + 1 * (x 0).val = (x 0).val; rw [e0]; omega
  | ⟨1, _⟩ => show win0_4.index t (1 : Fin 2) * 1 + 1 * (x 1).val = (x 1).val; rw [e1]; omega

/-- An index of the output array is in point t's block iff each coordinate is in the block's range on its axis. -/
theorem mem_out_block (t : Fin cfg0.N) (i : S2002000x1.Idx) :
    i ∈ ((cfg0.win 5).blk t).view.set ↔ ∀ a : Fin 2, win0_5.index t a * S14000x1.size a ≤ (i a).val
      ∧ (i a).val < win0_5.index t a * S14000x1.size a + S14000x1.size a := by
  show i ∈ ((View.whole main_v21).slice (win0_5.rect t)).set ↔ _
  rw [View.set_slice_whole, Rect.mem_set_unit]
  exact Iff.rfl

/-- Every row of the output array is in the block of the point its row number divided by 14000 names. -/
theorem out_cover (i : S2002000x1.Idx) :
    ∃ t : Fin cfg0.N, (cfg0.win 5).flush t = true ∧ i ∈ ((cfg0.win 5).blk t).view.set := by
  have hN : cfg0.N = 143 := N_0
  have hi0 : (i 0).val < 2002000 := (i 0).isLt
  have hi1 : (i 1).val < 1 := (i 1).isLt
  obtain ⟨t, ht⟩ : ∃ t : Fin cfg0.N, t.val = (i 0).val / 14000 := ⟨⟨(i 0).val / 14000, by rw [hN]; omega⟩, rfl⟩
  obtain ⟨-, -, -, -, -, -, -, -, -, -, e0, e1⟩ := idx_facts t
  refine ⟨t, flush0_5 t, ?_⟩
  rw [mem_out_block]
  intro a
  match a with
  | ⟨0, _⟩ =>
    show win0_5.index t (0 : Fin 2) * 14000 ≤ (i 0).val ∧ (i 0).val < win0_5.index t (0 : Fin 2) * 14000 + 14000
    rw [e0, ht]; omega
  | ⟨1, _⟩ =>
    show win0_5.index t (1 : Fin 2) * 1 ≤ (i 1).val ∧ (i 1).val < win0_5.index t (1 : Fin 2) * 1 + 1
    rw [e1]; omega

/-- The row of the output array that row y of point t's output block lands on. -/
theorem out_row (t : Fin cfg0.N) (y : S14000x1.Idx) :
    ((((cfg0.win 5).blk t).view.emb y : S2002000x1.Idx) 0).val = 14000 * t.val + (y 0).val := by
  obtain ⟨-, -, -, -, -, -, -, -, -, -, e0, -⟩ := idx_facts t
  show win0_5.index t (0 : Fin 2) * 14000 + 1 * (y 0).val = _
  rw [e0]; omega

end Cert.KernelIdeal.Blocks
end
-- ==== Proof.LibConcatenateSimp.lean ====
/-
  Lemmas that let `simp` evaluate a fold of host operations through a `concatenate`.

  The contents of a buffer after a list of host operations is a fold; the library's result lemmas rewrite it one
  operation at a time. A `concatenate` holds its operands as the second components of dependent pairs, where `simp`
  does not rewrite on its own, and a `concatenate` of four operands printed over a literal family `![a, b, c, d]` looks
  its operands up at `![a, b, c, d] k`. With the two congruence lemmas below (tagged `congr` where they are used) and the
  four evaluations of a literal 4-vector added to the simp set, the fold is evaluated inside the operands as well.
-/
import Idealize.ShloMosaic.Lib.Pipeline.Value

namespace Cert.LibConcatenateSimp

open Idealize.ShloMosaic

/-- A two-operand `concatenate` of equal operands is the same array. -/
theorem concatenate2_congr {α : Type} {t s₁ s₂ : Shape} (a : Fin t.rank) {x₁ x₁' : s₁.Idx → α} {x₂ x₂' : s₂.Idx → α}
    (h : Shape.Concatenates [s₁, s₂] t a) (e₁ : x₁ = x₁') (e₂ : x₂ = x₂') :
    concatenate t a [⟨s₁, x₁⟩, ⟨s₂, x₂⟩] h = concatenate t a [⟨s₁, x₁'⟩, ⟨s₂, x₂'⟩] h := by subst e₁ e₂; rfl

/-- A four-operand `concatenate` of equal operands is the same array. -/
theorem concatenate4_congr {α : Type} {t s₁ s₂ s₃ s₄ : Shape} (a : Fin t.rank) {x₁ x₁' : s₁.Idx → α} {x₂ x₂' : s₂.Idx → α}
    {x₃ x₃' : s₃.Idx → α} {x₄ x₄' : s₄.Idx → α}
    (h : Shape.Concatenates [s₁, s₂, s₃, s₄] t a) (e₁ : x₁ = x₁') (e₂ : x₂ = x₂') (e₃ : x₃ = x₃') (e₄ : x₄ = x₄') :
    concatenate t a [⟨s₁, x₁⟩, ⟨s₂, x₂⟩, ⟨s₃, x₃⟩, ⟨s₄, x₄⟩] h = concatenate t a [⟨s₁, x₁'⟩, ⟨s₂, x₂'⟩, ⟨s₃, x₃'⟩, ⟨s₄, x₄'⟩] h := by
  subst e₁ e₂ e₃ e₄; rfl

theorem vec4_at0 {α : Type} (a b c d : α) : (![a, b, c, d] : Fin 4 → α) 0 = a := rfl
theorem vec4_at1 {α : Type} (a b c d : α) : (![a, b, c, d] : Fin 4 → α) 1 = b := rfl
theorem vec4_at2 {α : Type} (a b c d : α) : (![a, b, c, d] : Fin 4 → α) 2 = c := rfl
theorem vec4_at3 {α : Type} (a b c d : α) : (![a, b, c, d] : Fin 4 → α) 3 = d := rfl

end Cert.LibConcatenateSimp
-- ==== Proof.EntryArrays.lean ====
/-
  The arrays the region finds, as terms of the arguments.

  Before the region the host casts the node table and both weight matrices to bf16 (the identity on extended reals),
  normalises the two index arrays, gathers the two endpoint rows of every edge, lays them side by side, pads the result
  with 2000 rows of zeros, and reshapes the two biases to one row each. So the padded edge-feature array, read at a row
  below 2000000, is the reference's own edge-feature array at that row; the weight matrices are the arguments; and the
  bias rows are the bias vectors with a unit axis in front.
-/
import proofs.«180528_j34050500723299_2_alg».proof.Proof.Gen.KernelIdeal.Frame
import proofs.«180528_j34050500723299_2_alg».proof.Proof.Gen.ReferenceIdeal.Read
import proofs.«180528_j34050500723299_2_alg».proof.Proof.LibConcatenateSimp
import Idealize.ShloMosaic.Lib.StableHlo.Run
import Idealize.ShloMosaic.Lib.KernelVsHost
import Idealize.ShloMosaic.PureOps.Ideal
import Idealize.ShloMosaic.Lib.ValueIdx
import Idealize.ShloMosaic.Lib.ValueLayout

noncomputable section
namespace Cert.KernelIdeal.Entry
open Cert.KernelIdeal Cert.KernelIdeal.Gen Idealize.ShloMosaic Idealize.ShloMosaic.TcCoe Idealize.SL.Sem Idealize.ShloMosaic.StableHlo
open Idealize.ShloMosaic.ValueIdx

variable (m : (ℓ : Loc nD τ sig) → Buf (Elt Ideal) ℓ)

attribute [local congr] Cert.LibConcatenateSimp.concatenate2_congr

/-- The edge-feature array of the arguments: the two gathered halves side by side, as the reference spells it. -/
abbrev features (c : Dev nD) : S2000000x128.Idx → EReal :=
  Cert.ReferenceIdeal.Read.val_main_v14 (F := Ideal) (m ((c : Thread nD τ).loc main_arg0)) (m ((c : Thread nD τ).loc main_arg1))
    (m ((c : Thread nD τ).loc main_arg2))

set_option maxHeartbeats 2000000 in
/-- The array the edge window stages is the edge-feature array with 2000 rows of the converted integer zero below it. -/
theorem padded_eq (c : Dev nD) : (V m c main_v20 : S2002000x128.Idx → EReal)
    = pad S2002000x128 ![0, 0] ![2000, 0] ![0, 0] (features m c)
        (sitofp (F := Ideal) .bf16 (constantI S_ 32 0#32)) pads_S2000000x128_S2002000x128_020000_000 h_S_ := by
  dsimp only [V, V0]
  simp only [hostOps0, hostOps0_1, List.flatten_cons, List.flatten_nil, List.append_nil, List.cons_append, List.nil_append]
  after_results_simp
  rfl

/-- A row below 2000000 of the padded array is that row of the edge-feature array. -/
theorem padded_apply (c : Dev nD) (r : Fin 2002000) (e : Fin 2000000) (j : Fin 128) (hr : r.val = e.val) :
    (V m c main_v20 : S2002000x128.Idx → EReal) (ix2 r j) = features m c (ix2 e j) := by
  rw [padded_eq]
  refine pad_apply_of_inside _ _ _ _ _ _ _ (ix2 r j) (ix2 e j) fun a => ?_
  match a with
  | ⟨0, _⟩ => show r.val = 0 + e.val * (0 + 1); omega
  | ⟨1, _⟩ => show j.val = 0 + j.val * (0 + 1); omega

/-- The staged W1 is the argument (its cast to bf16 changes no extended real). -/
theorem w1_eq (c : Dev nD) : (V m c main_v16 : S128x64.Idx → EReal) = m ((c : Thread nD τ).loc main_arg3) := by
  dsimp only [V, V0]
  simp only [hostOps0, hostOps0_1, List.flatten_cons, List.flatten_nil, List.append_nil, List.cons_append, List.nil_append]
  after_results_simp
  rfl

/-- The staged W2 is the argument. -/
theorem w2_eq (c : Dev nD) : (V m c main_v17 : S64x1.Idx → EReal) = m ((c : Thread nD τ).loc main_arg5) := by
  dsimp only [V, V0]
  simp only [hostOps0, hostOps0_1, List.flatten_cons, List.flatten_nil, List.append_nil, List.cons_append, List.nil_append]
  after_results_simp
  rfl

/-- The staged b1 row is b1 with a unit axis in front. -/
theorem b1_eq (c : Dev nD) : (V m c main_v18 : S1x64.Idx → EReal)
    = shapeCast S1x64 (m ((c : Thread nD τ).loc main_arg4)) shapeCasts_S64_S1x64 := by
  dsimp only [V, V0]
  simp only [hostOps0, hostOps0_1, List.flatten_cons, List.flatten_nil, List.append_nil, List.cons_append, List.nil_append]
  after_results_simp
  rfl

/-- Entry k of the staged b1 row is b1 k. -/
theorem b1_apply (c : Dev nD) (k : Fin 64) :
    (V m c main_v18 : S1x64.Idx → EReal) (ix2 0 k) = (m ((c : Thread nD τ).loc main_arg4) : S64.Idx → EReal) (ix1 k) := by
  rw [b1_eq]
  exact shapeCast_a_1a_apply _ _ 0 k

/-- The staged b2 is b2 with a unit axis in front. -/
theorem b2_eq (c : Dev nD) : (V m c main_v19 : S1x1.Idx → EReal)
    = shapeCast S1x1 (m ((c : Thread nD τ).loc main_arg6)) shapeCasts_S1_S1x1 := by
  dsimp only [V, V0]
  simp only [hostOps0, hostOps0_1, List.flatten_cons, List.flatten_nil, List.append_nil, List.cons_append, List.nil_append]
  after_results_simp
  rfl

/-- Its one entry is b2's one entry. -/
theorem b2_apply (c : Dev nD) :
    (V m c main_v19 : S1x1.Idx → EReal) (ix2 0 0) = (m ((c : Thread nD τ).loc main_arg6) : S1.Idx → EReal) (ix1 0) := by
  rw [b2_eq]
  exact shapeCast_a_1a_apply _ _ 0 0

end Cert.KernelIdeal.Entry
end
-- ==== Proof.RefScore.lean ====
/-
  The reference at one edge.

  Row e of the reference's result is the score of edge e: the product of the edge-feature array's row e with W1, plus
  b1 laid along every row, clamped below at zero, times W2, plus b2. The edge-feature array (the two gathered halves
  side by side) is kept as one opaque array here; only the matrix products, the two bias broadcasts and the clamp are
  read at an index.
-/
import proofs.«180528_j34050500723299_2_alg».proof.Proof.Gen.ReferenceIdeal.Read
import proofs.«180528_j34050500723299_2_alg».proof.Proof.EdgeScore

noncomputable section
open scoped BigOperators
namespace Cert.ReferenceIdeal.Score
open Cert.ReferenceIdeal Cert.ReferenceIdeal.Read Idealize.ShloMosaic Idealize.ShloMosaic.ValueIdx Cert.EdgeMlp

/-- The second product at (e, q) reads the hidden row e at k … -/
theorem hidden_at (e : Fin 2000000) (q : Fin 1) (k : Fin 64) : lidx_main_v20 (ix2 e q) k = ix2 e k :=
  funext fun a => match a with | ⟨0, _⟩ => rfl | ⟨1, _⟩ => rfl
/-- … against W2 at (k, q). -/
theorem w2_at (e : Fin 2000000) (q : Fin 1) (k : Fin 64) : ridx_main_v20 (ix2 e q) k = ix2 k q :=
  funext fun a => match a with | ⟨0, _⟩ => rfl | ⟨1, _⟩ => rfl
/-- The first product at (e, k) reads the feature row e at j … -/
theorem feature_at (e : Fin 2000000) (k : Fin 64) (j : Fin 128) : lidx_main_v15 (ix2 e k) j = ix2 e j :=
  funext fun a => match a with | ⟨0, _⟩ => rfl | ⟨1, _⟩ => rfl
/-- … against W1 at (j, k). -/
theorem w1_at (e : Fin 2000000) (k : Fin 64) (j : Fin 128) : ridx_main_v15 (ix2 e k) j = ix2 j k :=
  funext fun a => match a with | ⟨0, _⟩ => rfl | ⟨1, _⟩ => rfl
/-- b1 laid along every row: entry (e, k) is b1 k. -/
theorem b1_at (e : Fin 2000000) (k : Fin 64) : idx_main_v16 (idx_main_v17 (ix2 e k)) = ix1 k :=
  funext fun a => match a with | ⟨0, _⟩ => rfl
/-- b2 laid along every row: every entry is b2's one entry. -/
theorem b2_at (e : Fin 2000000) (q : Fin 1) : idx_main_v21 (idx_main_v22 (ix2 e q)) = ix1 0 :=
  funext fun a => match a with | ⟨0, _⟩ => rfl

/-- Row e of the reference's result is the score of edge e, from row e of the edge-feature array. -/
theorem result_apply (x0 : (⟨S150000x64, .f32⟩ : BufTy).Contents (Elt Ideal)) (x1 x2 : (⟨S2000000, .i32⟩ : BufTy).Contents (Elt Ideal))
    (x3 : (⟨S128x64, .f32⟩ : BufTy).Contents (Elt Ideal)) (x4 : (⟨S64, .f32⟩ : BufTy).Contents (Elt Ideal))
    (x5 : (⟨S64x1, .f32⟩ : BufTy).Contents (Elt Ideal)) (x6 : (⟨S1, .f32⟩ : BufTy).Contents (Elt Ideal)) (e : Fin 2000000) (q : Fin 1) :
    val_main_v23 (F := Ideal) x0 x1 x2 x3 x4 x5 x6 (ix2 e q)
      = edgeScore (fun j => val_main_v14 (F := Ideal) x0 x1 x2 (ix2 e j)) (fun j k => x3 (ix2 j k)) (fun k => x4 (ix1 k))
          (fun k => x5 (ix2 k q)) (x6 (ix1 0)) := by
  rw [val_main_v23_apply, val_main_v20_apply, val_main_v22_apply, val_main_v21_apply]
  simp only [val_main_v19_apply, val_main_v18_apply, val_main_v15_apply, val_main_v17_apply, val_main_v16_apply,
    val_main_call0_v0_apply, val_main_call0_cst_apply, hidden_at, w2_at, feature_at, w1_at, b1_at, b2_at,
    Ideal.addf_def, Ideal.maximumf_def, Ideal.ofBits_def, Ideal.ofBits_zero_f32]
  rfl

end Cert.ReferenceIdeal.Score
end
-- ==== Proof.KernelScores.lean ====
/-
  What the kernel's program computes.

  Every grid point writes back, as rows 14000·t … 14000·t + 13999 of the region's output array, the scores of the edges
  in the same rows of the padded edge-feature array; the 143 blocks cover the output array, so it ends holding the score
  of every row. The program's result is the first 2000000 rows of it, and those rows of the padded array are the rows of
  the edge-feature array itself: row e of the result is the score of edge e.
-/
import proofs.«180528_j34050500723299_2_alg».proof.Proof.BodyScore
import proofs.«180528_j34050500723299_2_alg».proof.Proof.EdgeBlocks
import proofs.«180528_j34050500723299_2_alg».proof.Proof.EntryArrays
import proofs.«180528_j34050500723299_2_alg».proof.Proof.RefScore
import Idealize.ShloMosaic.Lib.Pipeline.Value
import Idealize.ShloMosaic.Lib.StableHlo.Run
import Idealize.ShloMosaic.Lib.ValueLayout

noncomputable section
namespace Cert.KernelIdeal.Scores
open Cert.KernelIdeal Cert.KernelIdeal.Gen Idealize.ShloMosaic Idealize.ShloMosaic.TcCoe Idealize.SL.Sem Idealize.ShloMosaic.StableHlo
open Idealize.ShloMosaic.ValueIdx Cert.EdgeMlp Cert.KernelIdeal.Body Cert.KernelIdeal.Blocks Cert.KernelIdeal.Entry
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The score of the edge in row r of the padded edge-feature array, with the weights and biases as the region finds them. -/
def rowScore (c : Dev nD) (r : Fin 2002000) (q : Fin 1) : EReal :=
  edgeScore (fun j => (V m c main_v20 : S2002000x128.Idx → EReal) (ix2 r j))
    (fun j k => (V m c main_v16 : S128x64.Idx → EReal) (ix2 j k))
    (fun k => (V m c main_v18 : S1x64.Idx → EReal) (ix2 0 k))
    (fun k => (V m c main_v17 : S64x1.Idx → EReal) (ix2 k q))
    ((V m c main_v19 : S1x1.Idx → EReal) (ix2 0 0))

/-- The region's output array: every row's score. -/
def scores (c : Dev nD) : S2002000x1.Idx → EReal := fun i => rowScore m c (i 0) (i 1)

/-- Row y of what the body stores at point t is the score of row 14000·t + y. -/
theorem block_row (c : Dev nD) (t : Fin cfg0.N) (y : S14000x1.Idx) (i : S2002000x1.Idx)
    (h0 : (i 0).val = 14000 * t.val + (y 0).val) :
    k0_pay1 (F := Ideal) (iblk m c 0 t) (iblk m c 1 t) (iblk m c 2 t) (iblk m c 3 t) (iblk m c 4 t) y = scores m c i := by
  obtain ⟨p, q, rfl⟩ : ∃ (p : Fin 14000) (q : Fin 1), y = ix2 p q := ⟨y 0, y 1, eq_ix2 y⟩
  obtain ⟨r, q', rfl⟩ : ∃ (r : Fin 2002000) (q' : Fin 1), i = ix2 r q' := ⟨i 0, i 1, eq_ix2 i⟩
  obtain rfl : q = q' := Subsingleton.elim _ _
  have hr : r.val = 14000 * t.val + p.val := h0
  refine (pay_apply (iblk m c 0 t) (iblk m c 1 t) (iblk m c 2 t) (iblk m c 3 t) (iblk m c 4 t) p q).trans ?_
  show _ = rowScore m c r q
  unfold rowScore
  rw [w1_block m c t, b1_block m c t, w2_block m c t, b2_block m c t]
  have he : (fun j : Fin 128 => (iblk m c 0 t : Vec Ideal S14000x128 .bf16) (ix2 p j))
      = fun j => (V m c main_v20 : S2002000x128.Idx → EReal) (ix2 r j) :=
    funext fun j => edge_block m c t p j r hr
  rw [he]

/-- What point t writes back is its block of the scores. -/
theorem flushed_eq (c : Dev nD) (t : Fin cfg0.N) :
    (dats m 0 c).flushed 5 t = ((cfg0.win 5).blk t).view.read (Elt Ideal) (scores m c) := by
  show (cfg0.win 5).cut (grid0.coords t) ((dats m 0 c).after 5 t) = _
  rw [after0_5]
  unfold out0_5
  rw [View.canon_unit_zero hz]
  simp only [View.ld_unit_zero (S := S14000x128) hz, View.ld_unit_zero (S := S128x64) hz, View.ld_unit_zero (S := S1x64) hz,
    View.ld_unit_zero (S := S64x1) hz, View.ld_unit_zero (S := S1x1) hz]
  funext y
  exact block_row m c t y (((cfg0.win 5).blk t).view.emb y) (out_row t y)

/-- The output array after the region: the scores. -/
theorem final (c : Dev nD) : (dats m 0 c).arrAt 5 cfg0.N = scores m c :=
  (dats m 0 c).arrAt_eq_of_cover 5 (scores m c) (fun t _ => flushed_eq m c t) out_cover

/-- The program's result: the first 2000000 rows of the scores. -/
theorem tail_eq (c : Dev nD) : Pipeline.afterTail₀ cfgs (dats m) 0 (V0 m) [hostOps1] c main_v22
    = extractStridedSlice S2000000x1 ![0, 0] (scores m c) slices_S2002000x1_S2000000x1_0_0 := by
  unfold Pipeline.afterTail₀
  show StableHlo.after hostOps1 _ (Proc.devRef .tc main_v22) = _
  after_results
  refine congrArg (fun x : S2002000x1.Idx → EReal => extractStridedSlice S2000000x1 (![0, 0] : Fin 2 → Nat) x slices_S2002000x1_S2000000x1_0_0) ?_
  exact (Pipeline.withArrays_arr spec0 launch0.win.arr_inj c _ _ 5).trans (final m c)

/-- Row e of the program's result is the score of edge e, from row e of the edge-feature array and the weight and
    bias arguments. -/
theorem result_apply (c : Dev nD) (e : Fin 2000000) (q : Fin 1) :
    extractStridedSlice S2000000x1 ![0, 0] (scores m c) slices_S2002000x1_S2000000x1_0_0 (ix2 e q)
      = edgeScore (fun j => features m c (ix2 e j))
          (fun j k => (m ((c : Thread nD τ).loc main_arg3) : S128x64.Idx → EReal) (ix2 j k))
          (fun k => (m ((c : Thread nD τ).loc main_arg4) : S64.Idx → EReal) (ix1 k))
          (fun k => (m ((c : Thread nD τ).loc main_arg5) : S64x1.Idx → EReal) (ix2 k q))
          ((m ((c : Thread nD τ).loc main_arg6) : S1.Idx → EReal) (ix1 0)) := by
  obtain ⟨r, hr⟩ : ∃ r : Fin 2002000, r.val = e.val := ⟨⟨e.val, by have := e.isLt; omega⟩, rfl⟩
  refine (slice2_axis0_apply 0 (scores m c) _ e q r (by omega)).trans ?_
  show rowScore m c r q = _
  unfold rowScore
  have hp : ∀ j : Fin 128, (V m c main_v20 : S2002000x128.Idx → EReal) (ix2 r j) = features m c (ix2 e j) :=
    fun j => padded_apply m c r e j hr
  simp only [hp, w1_eq m c, w2_eq m c, b1_apply m c, b2_apply m c]

/-- The program's result, named by the reference's own last stage applied to the kernel program's arguments. -/
abbrev result (c : Dev nD) : S2000000x1.Idx → EReal :=
  Cert.ReferenceIdeal.Read.val_main_v23 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6))

/-- The first 2000000 rows of the scores are the reference's result, row by row: both are the edge's score. -/
theorem sliced_eq (c : Dev nD) :
    extractStridedSlice S2000000x1 ![0, 0] (scores m c) slices_S2002000x1_S2000000x1_0_0 = result m c := by
  funext i
  obtain ⟨e, q, rfl⟩ : ∃ (e : Fin 2000000) (q : Fin 1), i = ix2 e q := ⟨i 0, i 1, eq_ix2 i⟩
  rw [result_apply]
  exact (Cert.ReferenceIdeal.Score.result_apply _ _ _ _ _ _ _ e q).symm

/-- The kernel program's run: every weakly fair execution ends with the result array at `result` and the arguments
    unchanged. -/
theorem run : θ_run defs (onTc (τ := τ) (main (F := Ideal))) ⟨m, fun _ => 0, ρ⟩ fun r => ∀ c : Dev nD,
      r.2.mem ((c.tc : Thread nD τ).loc main_v22) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v22 (Pipeline.mem_restRefs_of main_v22 (by decide) (by decide))).trans ((tail_eq m c).trans (sliced_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Scores
end
-- ==== Proof.lean ====
/- The kernel's program scores every edge of a graph with a two-layer perceptron: it gathers the two endpoint rows of each
   edge from the node table, lays them side by side, pads the rows to 143 blocks of 14000, runs the perceptron block by
   block, and keeps the first 2000000 scores. The reference gathers the same rows and applies the same perceptron to all
   rows at once. On extended reals the changes of float format are the identity and a matrix product is its sum, so both
   results are, row by row, max(x·W1 + b1, 0)·W2 + b2 of the same feature row x: Proof/EdgeScore.lean names that number,
   Proof/BodyScore.lean and Proof/RefScore.lean read it off the kernel body and off the reference, Proof/EdgeBlocks.lean
   and Proof/EntryArrays.lean say which rows a grid point loads and what the loaded arrays are, and Proof/KernelScores.lean
   assembles the program's result. The precondition is not used: no step moves a factor across a sum.
   The three frames are the generated ones (the reference's is its generated run with the result dropped); the ideal pass
   rewrote nothing, so there is nothing to preserve. -/
import proofs.«180528_j34050500723299_2_alg».proof.Defs
import proofs.«180528_j34050500723299_2_alg».proof.Proof.Gen.Kernel
import proofs.«180528_j34050500723299_2_alg».proof.Proof.Gen.Kernel.Skeleton
import proofs.«180528_j34050500723299_2_alg».proof.Proof.Gen.Kernel.Launch
import proofs.«180528_j34050500723299_2_alg».proof.Proof.Gen.Kernel.Points
import proofs.«180528_j34050500723299_2_alg».proof.Proof.Gen.Kernel.Frame
import proofs.«180528_j34050500723299_2_alg».proof.Proof.Gen.KernelIdeal
import proofs.«180528_j34050500723299_2_alg».proof.Proof.Gen.KernelIdeal.Skeleton
import proofs.«180528_j34050500723299_2_alg».proof.Proof.Gen.KernelIdeal.Launch
import proofs.«180528_j34050500723299_2_alg».proof.Proof.Gen.KernelIdeal.Points
import proofs.«180528_j34050500723299_2_alg».proof.Proof.Gen.KernelIdeal.Frame
import proofs.«180528_j34050500723299_2_alg».proof.Proof.Gen.ReferenceIdeal
import proofs.«180528_j34050500723299_2_alg».proof.Proof.Gen.Pre_finite_inputs
import proofs.«180528_j34050500723299_2_alg».proof.Proof.Gen.ReferenceIdeal.Run
import proofs.«180528_j34050500723299_2_alg».proof.Proof.Gen.ReferenceIdeal.Read
import proofs.«180528_j34050500723299_2_alg».proof.Proof.KernelScores
import Idealize.ShloMosaic.Adequacy
import Idealize.ShloMosaic.Init

noncomputable section

namespace Cert.Proof

open Idealize.ShloMosaic Idealize.SL.Sem Cert.Kernel

/-- The word-level kernel program runs and leaves its arguments unchanged. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- So does the idealized reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the arguments both idealized programs end with the same scores: the kernel program's
    result is the reference's last stage of its own arguments, and the reference's is that stage of arguments that agree. -/
theorem algebraic : Cert.algebraic_KernelIdeal_ReferenceIdeal := by
  intro m ρ m' ρ' _ hagree
  refine ⟨fun c => Cert.KernelIdeal.Scores.result m c, Cert.KernelIdeal.Scores.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v23_eq, h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
